-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2 : Shape := ⟨3, ![4, 2048, 2]⟩
abbrev S4x2048x128 : Shape := ⟨3, ![4, 2048, 128]⟩
abbrev S128x128x2 : Shape := ⟨3, ![128, 128, 2]⟩
abbrev S2 : Shape := ⟨1, ![2]⟩
abbrev S_ : Shape := ⟨0, ![]⟩

class Facts : Prop where
  bcast_S_S4x2048x2 : S_.BroadcastsInDim S4x2048x2 (![] : Fin 0 → Fin S4x2048x2.rank)
  reducesTo_S4x2048x2_S_d0_1_2 : S4x2048x2.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S128x128x2 : S_.BroadcastsInDim S128x128x2 (![] : Fin 0 → Fin S128x128x2.rank)
  reducesTo_S128x128x2_S_d0_1_2 : S128x128x2.ReducesTo [0, 1, 2] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S4x2048x2 .f32) (main_arg1 : FVec F S4x2048x128 .f32) (main_arg2 : FVec F S128x128x2 .f32) (main_arg3 : FVec F S2 .f32) : IVec S_ 1 :=
  let main_v0 : FVec F S4x2048x2 .f32 := Host.absf main_arg0
  let main_cst : FVec F S_ .f32 := constant S_ .f32 0x7F800000#32
  let main_v1 : FVec F S4x2048x2 .f32 := broadcastInDim S4x2048x2 ![] bcast_S_S4x2048x2 main_cst
  let main_v2 : IVec S4x2048x2 1 := cmpf .olt main_v0 main_v1
  let main_c : IVec S_ 1 := constantI S_ 1 1#1
  let main_v3 : IVec S_ 1 := (fun x v => Host.reduce IntOp.andi x v reducesTo_S4x2048x2_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S128x128x2 .f32 := Host.absf main_arg2
  let main_cst_2 : FVec F S_ .f32 := constant S_ .f32 0x7F800000#32
  let main_v10 : FVec F S128x128x2 .f32 := broadcastInDim S128x128x2 ![] bcast_S_S128x128x2 main_cst_2
  let main_v11 : IVec S128x128x2 1 := cmpf .olt main_v9 main_v10
  let main_c_3 : IVec S_ 1 := constantI S_ 1 1#1
  let main_v12 : IVec S_ 1 := (fun x v => Host.reduce IntOp.andi x v reducesTo_S128x128x2_S_d0_1_2 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S4x2048x2 : Shape := ⟨3, ![4, 2048, 2]⟩
abbrev S4x2048x128 : Shape := ⟨3, ![4, 2048, 128]⟩
abbrev S128x128x2 : Shape := ⟨3, ![128, 128, 2]⟩
abbrev S2 : Shape := ⟨1, ![2]⟩
abbrev S_ : Shape := ⟨0, ![]⟩
abbrev S16384x2 : Shape := ⟨2, ![16384, 2]⟩
abbrev S1x2 : Shape := ⟨2, ![1, 2]⟩
abbrev S16384 : Shape := ⟨1, ![16384]⟩
abbrev S16384x1 : Shape := ⟨2, ![16384, 1]⟩
abbrev S1x1x2 : Shape := ⟨3, ![1, 1, 2]⟩
abbrev S4x2048 : Shape := ⟨2, ![4, 2048]⟩
abbrev S4x1x2048 : Shape := ⟨3, ![4, 1, 2048]⟩
abbrev S4x2x2048 : Shape := ⟨3, ![4, 2, 2048]⟩
abbrev S4x16384x128 : Shape := ⟨3, ![4, 16384, 128]⟩
abbrev S512x2 : Shape := ⟨2, ![512, 2]⟩
abbrev S512x1 : Shape := ⟨2, ![512, 1]⟩
abbrev S1x2x2048 : Shape := ⟨3, ![1, 2, 2048]⟩
abbrev S1x1x2048 : Shape := ⟨3, ![1, 1, 2048]⟩
abbrev S1x2048x128 : Shape := ⟨3, ![1, 2048, 128]⟩
abbrev S1x512x128 : Shape := ⟨3, ![1, 512, 128]⟩
abbrev S2x2048 : Shape := ⟨2, ![2, 2048]⟩
abbrev S1x2048 : Shape := ⟨2, ![1, 2048]⟩
abbrev S2048x128 : Shape := ⟨2, ![2048, 128]⟩
abbrev S512x2048 : Shape := ⟨2, ![512, 2048]⟩
abbrev S512x128 : Shape := ⟨2, ![512, 128]⟩
abbrev S4x128x128x128 : Shape := ⟨4, ![4, 128, 128, 128]⟩
abbrev S1x128x128x2 : Shape := ⟨4, ![1, 128, 128, 2]⟩
abbrev S4x128x128x2 : Shape := ⟨4, ![4, 128, 128, 2]⟩

abbrev nBuf : Space → Nat
  | .hbm => 50
  | .vmem => 12
  | .smem => 0
  | _ => 0

abbrev bufTy : (tb : Table) → Fin (tcTables nBuf tb) → BufTy
  | .hbm, ⟨0, _⟩ => ⟨S4x2048x2, .f32⟩
  | .hbm, ⟨1, _⟩ => ⟨S4x2048x128, .f32⟩
  | .hbm, ⟨2, _⟩ => ⟨S128x128x2, .f32⟩
  | .hbm, ⟨3, _⟩ => ⟨S2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S_, .f32⟩
  | .hbm, ⟨22, _⟩ => ⟨S2, .f32⟩
  | .hbm, ⟨23, _⟩ => ⟨S2, .f32⟩
  | .hbm, ⟨24, _⟩ => ⟨S16384x2, .f32⟩
  | .hbm, ⟨25, _⟩ => ⟨S1x2, .f32⟩
  | .hbm, ⟨26, _⟩ => ⟨S16384x2, .f32⟩
  | .hbm, ⟨27, _⟩ => ⟨S16384x2, .f32⟩
  | .hbm, ⟨28, _⟩ => ⟨S16384x2, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S1x1x2, .f32⟩
  | .hbm, ⟨36, _⟩ => ⟨S4x2048x2, .f32⟩
  | .hbm, ⟨37, _⟩ => ⟨S4x2048x2, .f32⟩
  | .hbm, ⟨38, _⟩ => ⟨S4x2048x2, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x1x2048, .f32⟩
  | .hbm, ⟨45, _⟩ => ⟨S4x2x2048, .f32⟩
  | .hbm, ⟨46, _⟩ => ⟨S4x16384x128, .f32⟩
  | .hbm, ⟨47, _⟩ => ⟨S4x128x128x128, .f32⟩
  | .hbm, ⟨48, _⟩ => ⟨S1x128x128x2, .f32⟩
  | .hbm, ⟨49, _⟩ => ⟨S4x128x128x2, .f32⟩
  | .local _ .vmem, ⟨0, _⟩ => ⟨S512x2, .f32⟩
  | .local _ .vmem, ⟨1, _⟩ => ⟨S512x2, .f32⟩
  | .local _ .vmem, ⟨2, _⟩ => ⟨S512x1, .f32⟩
  | .local _ .vmem, ⟨3, _⟩ => ⟨S512x1, .f32⟩
  | .local _ .vmem, ⟨4, _⟩ => ⟨S1x2x2048, .f32⟩
  | .local _ .vmem, ⟨5, _⟩ => ⟨S1x2x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048x128, .f32⟩
  | .local _ .vmem, ⟨9, _⟩ => ⟨S1x2048x128, .f32⟩
  | .local _ .vmem, ⟨10, _⟩ => ⟨S1x512x128, .f32⟩
  | .local _ .vmem, ⟨11, _⟩ => ⟨S1x512x128, .f32⟩
  | _, _ => ⟨S4x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S2 : S_.BroadcastsInDim S2 (![] : Fin 0 → Fin S2.rank)
  shapeCasts_S128x128x2_S16384x2 : S128x128x2.ShapeCasts S16384x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  reducesTo_S16384x2_S16384_d1 : S16384x2.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S2_S1x1x2_2 : S2.BroadcastsInDim S1x1x2 (![2] : Fin 1 → Fin S1x1x2.rank)
  bcast_S1x1x2_S4x2048x2_0_1_2 : S1x1x2.BroadcastsInDim S4x2048x2 (![0, 1, 2] : Fin 3 → Fin S4x2048x2.rank)
  reducesTo_S4x2048x2_S4x2048_d2 : S4x2048x2.ReducesTo [2] S4x2048
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  transposes_S4x2048x2_S4x2x2048_0_2_1 : S4x2048x2.Transposes [0, 2, 1] S4x2x2048
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  broadcasts_S512x1_S512x2048 : S512x1.Broadcasts S512x2048
  broadcasts_S1x2048_S512x2048 : S1x2048.Broadcasts S512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S4x16384x128_S4x128x128x128 : S4x16384x128.ShapeCasts S4x128x128x128
  bcast_S128x128x2_S1x128x128x2_1_2_3 : S128x128x2.BroadcastsInDim S1x128x128x2 (![1, 2, 3] : Fin 3 → Fin S1x128x128x2.rank)
  bcast_S1x128x128x2_S4x128x128x2_0_1_2_3 : S1x128x128x2.BroadcastsInDim S4x128x128x2 (![0, 1, 2, 3] : Fin 4 → Fin S4x128x128x2.rank)
  dot_S512x2_S2x2048_S512x2048_1_0_0_1_n_n_wf : DotDims.WF S512x2 S2x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S16384x2.size a
  hwx0_0 : ∀ i : grid0.Coords, EltTy.bits .f32 = 32 ∨ (Rect.block (s := S16384x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048.size a ≤ S4x2x2048.size a
  hwx0_2 : ∀ i : grid0.Coords, EltTy.bits .f32 = 32 ∨ (Rect.block (s := S4x2x2048) S1x2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S4x2048x128.size a
  hwx0_4 : ∀ i : grid0.Coords, EltTy.bits .f32 = 32 ∨ (Rect.block (s := S4x2048x128) S1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S4x16384x128.size a
  hwx0_5 : ∀ i : grid0.Coords, EltTy.bits .f32 = 32 ∨ (Rect.block (s := S4x16384x128) S1x512x128.size (cc0_transform_5 i) (hinb0_5 i)).WholeWords (EltTy.packing .f32)

variable [Facts₀]

def dot_S512x2_S2x2048_S512x2048_1_0_0_1_n_n : DotDims S512x2 S2x2048 S512x2048 where
  lhsContracting := [1]
  rhsContracting := [0]
  lhsNonContracting := [0]
  rhsNonContracting := [1]
  lhsBatch := []
  rhsBatch := []
  wf := dot_S512x2_S2x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v8) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2 : Shape := ⟨3, ![4, 2048, 2]⟩
abbrev S4x2048x128 : Shape := ⟨3, ![4, 2048, 128]⟩
abbrev S128x128x2 : Shape := ⟨3, ![128, 128, 2]⟩
abbrev S2 : Shape := ⟨1, ![2]⟩
abbrev S_ : Shape := ⟨0, ![]⟩
abbrev S16384x2 : Shape := ⟨2, ![16384, 2]⟩
abbrev S1x16384x1x2 : Shape := ⟨4, ![1, 16384, 1, 2]⟩
abbrev S4x1x2048x2 : Shape := ⟨4, ![4, 1, 2048, 2]⟩
abbrev S4x16384x2048x2 : Shape := ⟨4, ![4, 16384, 2048, 2]⟩
abbrev S1x1x1x2 : Shape := ⟨4, ![1, 1, 1, 2]⟩
abbrev S4x16384x2048 : Shape := ⟨3, ![4, 16384, 2048]⟩
abbrev S4x16384x128 : Shape := ⟨3, ![4, 16384, 128]⟩
abbrev S4x128x128x128 : Shape := ⟨4, ![4, 128, 128, 128]⟩
abbrev S1x128x128x2 : Shape := ⟨4, ![1, 128, 128, 2]⟩
abbrev S4x128x128x2 : Shape := ⟨4, ![4, 128, 128, 2]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2, .f32⟩
  | .hbm, ⟨1, _⟩ => ⟨S4x2048x128, .f32⟩
  | .hbm, ⟨2, _⟩ => ⟨S128x128x2, .f32⟩
  | .hbm, ⟨3, _⟩ => ⟨S2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S16384x2, .f32⟩
  | .hbm, ⟨22, _⟩ => ⟨S1x16384x1x2, .f32⟩
  | .hbm, ⟨23, _⟩ => ⟨S4x1x2048x2, .f32⟩
  | .hbm, ⟨24, _⟩ => ⟨S4x16384x2048x2, .f32⟩
  | .hbm, ⟨25, _⟩ => ⟨S4x16384x2048x2, .f32⟩
  | .hbm, ⟨26, _⟩ => ⟨S4x16384x2048x2, .f32⟩
  | .hbm, ⟨27, _⟩ => ⟨S4x16384x2048x2, .f32⟩
  | .hbm, ⟨28, _⟩ => ⟨S2, .f32⟩
  | .hbm, ⟨29, _⟩ => ⟨S1x1x1x2, .f32⟩
  | .hbm, ⟨30, _⟩ => ⟨S4x16384x2048x2, .f32⟩
  | .hbm, ⟨31, _⟩ => ⟨S4x16384x2048x2, .f32⟩
  | .hbm, ⟨32, _⟩ => ⟨S_, .f32⟩
  | .hbm, ⟨33, _⟩ => ⟨S4x16384x2048, .f32⟩
  | .hbm, ⟨34, _⟩ => ⟨S_, .f32⟩
  | .hbm, ⟨35, _⟩ => ⟨S4x16384x2048, .f32⟩
  | .hbm, ⟨36, _⟩ => ⟨S4x16384x2048, .f32⟩
  | .hbm, ⟨37, _⟩ => ⟨S4x16384x2048, .f32⟩
  | .hbm, ⟨38, _⟩ => ⟨S4x16384x128, .f32⟩
  | .hbm, ⟨39, _⟩ => ⟨S4x128x128x128, .f32⟩
  | .hbm, ⟨40, _⟩ => ⟨S1x128x128x2, .f32⟩
  | .hbm, ⟨41, _⟩ => ⟨S4x128x128x2, .f32⟩
  | _, _ => ⟨S4x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  bcast_S_S2 : S_.BroadcastsInDim S2 (![] : Fin 0 → Fin S2.rank)
  shapeCasts_S128x128x2_S16384x2 : S128x128x2.ShapeCasts S16384x2
  bcast_S16384x2_S1x16384x1x2_1_3 : S16384x2.BroadcastsInDim S1x16384x1x2 (![1, 3] : Fin 2 → Fin S1x16384x1x2.rank)
  bcast_S4x2048x2_S4x1x2048x2_0_2_3 : S4x2048x2.BroadcastsInDim S4x1x2048x2 (![0, 2, 3] : Fin 3 → Fin S4x1x2048x2.rank)
  bcast_S1x16384x1x2_S4x16384x2048x2_0_1_2_3 : S1x16384x1x2.BroadcastsInDim S4x16384x2048x2 (![0, 1, 2, 3] : Fin 4 → Fin S4x16384x2048x2.rank)
  bcast_S4x1x2048x2_S4x16384x2048x2_0_1_2_3 : S4x1x2048x2.BroadcastsInDim S4x16384x2048x2 (![0, 1, 2, 3] : Fin 4 → Fin S4x16384x2048x2.rank)
  bcast_S2_S1x1x1x2_3 : S2.BroadcastsInDim S1x1x1x2 (![3] : Fin 1 → Fin S1x1x1x2.rank)
  bcast_S1x1x1x2_S4x16384x2048x2_0_1_2_3 : S1x1x1x2.BroadcastsInDim S4x16384x2048x2 (![0, 1, 2, 3] : Fin 4 → Fin S4x16384x2048x2.rank)
  reducesTo_S4x16384x2048x2_S4x16384x2048_d3 : S4x16384x2048x2.ReducesTo [3] S4x16384x2048
  h_S_ : 0 < S_.numel
  bcast_S_S4x16384x2048 : S_.BroadcastsInDim S4x16384x2048 (![] : Fin 0 → Fin S4x16384x2048.rank)
  shapeCasts_S4x16384x128_S4x128x128x128 : S4x16384x128.ShapeCasts S4x128x128x128
  bcast_S128x128x2_S1x128x128x2_1_2_3 : S128x128x2.BroadcastsInDim S1x128x128x2 (![1, 2, 3] : Fin 3 → Fin S1x128x128x2.rank)
  bcast_S1x128x128x2_S4x128x128x2_0_1_2_3 : S1x128x128x2.BroadcastsInDim S4x128x128x2 (![0, 1, 2, 3] : Fin 4 → Fin S4x128x128x2.rank)
  dot_S4x16384x2048_S4x2048x128_S4x16384x128_2_1_1_2_0_0_wf : DotDims.WF S4x16384x2048 S4x2048x128 S4x16384x128 [2] [1] [1] [2] [0] [0]

variable [Facts₀]

def dot_S4x16384x2048_S4x2048x128_S4x16384x128_2_1_1_2_0_0 : DotDims S4x16384x2048 S4x2048x128 S4x16384x128 where
  lhsContracting := [2]
  rhsContracting := [1]
  lhsNonContracting := [1]
  rhsNonContracting := [2]
  lhsBatch := [0]
  rhsBatch := [0]
  wf := dot_S4x16384x2048_S4x2048x128_S4x16384x128_2_1_1_2_0_0_wf

class Facts : Prop extends Facts₀ where

variable [Facts]
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.Payload.lean ====
/-
  The kernel body's stored value, read at an index.

  One grid point holds 512 grid rows (a tile of the scaled grid `a`, with its half squared norms in a column), one batch's
  scaled points transposed (`bT`, 2 x 2048, with its half squared norms in a row) and that batch's features `z`
  (2048 x 128). The body forms the 512 x 2048 matrix `exp (a . bT - halfrow - halfcol)` and multiplies it by `z`.
  So the stored tile at `(r, d)` is the sum over the points `n` of
  `exp ((sum_k a (r, k) * bT (k, n)) - halfrow r - halfcol n) * z (n, d)`.
-/
import proofs.«163607_j86251533238887_2_alg».proof.Proof.Gen.KernelIdeal.Skeleton
import proofs.«163607_j86251533238887_2_alg».proof.Proof.LibPlainDot
import proofs.«163607_j86251533238887_2_alg».proof.Proof.LibColBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The exponent's matrix at `(r, n)`: the cross term minus the two half norms. -/
theorem logits_apply (x0 : FVec Ideal S512x2 .f32) (x1 : FVec Ideal S512x1 .f32) (x2 : FVec Ideal S1x2x2048 .f32)
    (x3 : FVec Ideal S1x1x2048 .f32) (r : Fin 512) (n : Fin 2048) :
    subf (subf (matmul dot_S512x2_S2x2048_S512x2048_1_0_0_1_n_n (some .fp32) (shapeCast S512x2 x0 shapeCasts_S512x2_S512x2)
        (shapeCast S2x2048 x2 shapeCasts_S1x2x2048_S2x2048) (constant S512x2048 .f32 0x00000000#32))
        (broadcastTo S512x2048 (shapeCast S512x1 x1 shapeCasts_S512x1_S512x1) broadcasts_S512x1_S512x2048))
        (broadcastTo S512x2048 (shapeCast S1x2048 x3 shapeCasts_S1x1x2048_S1x2048) broadcasts_S1x2048_S512x2048) (ix2 r n)
      = (∑ k : Fin 2, x0 (ix2 r k) * x2 (ix3 (0 : Fin 1) k n)) - x1 (ix2 r (0 : Fin 1)) - x3 (ix3 (0 : Fin 1) (0 : Fin 1) n) := by
  rw [subf_apply, subf_apply, shapeCast_self, shapeCast_self]
  have hd : dot_S512x2_S2x2048_S512x2048_1_0_0_1_n_n = DotDims.plain 512 2 2048 := rfl
  rw [hd]
  have hm : matmul (DotDims.plain 512 2 2048) (some .fp32) x0 (shapeCast S2x2048 x2 shapeCasts_S1x2x2048_S2x2048)
      (constant S512x2048 .f32 0x00000000#32) (ix2 r n)
      = ∑ k : Fin 2, x0 (ix2 r k) * shapeCast S2x2048 x2 shapeCasts_S1x2x2048_S2x2048 (ix2 k n) :=
    Cert.Lib.PlainDot.matmul_zero_apply 512 2 2048 (some .fp32) x0 (shapeCast S2x2048 x2 shapeCasts_S1x2x2048_S2x2048) (ix2 r n)
  rw [hm]
  rw [Cert.Lib.ColBroadcast.broadcastTo_a1_ab_apply x1 broadcasts_S512x1_S512x2048 r n]
  rw [broadcastTo_1b_ab_apply (shapeCast S1x2048 x3 shapeCasts_S1x1x2048_S1x2048) broadcasts_S1x2048_S512x2048 r n]
  rw [shapeCast_1ab_ab_apply x3 shapeCasts_S1x1x2048_S1x2048 (0 : Fin 1) n]
  refine congrArg (fun s => s - x1 (ix2 r (0 : Fin 1)) - x3 (ix3 (0 : Fin 1) (0 : Fin 1) n)) ?_
  refine Finset.sum_congr rfl fun k _ => ?_
  rw [shapeCast_1ab_ab_apply x2 shapeCasts_S1x2x2048_S2x2048 k n]

/-- THE STORED TILE at `(r, d)`: the weights' row `r` against the features' column `d`. -/
theorem pay_apply (x0 : FVec Ideal S512x2 .f32) (x1 : FVec Ideal S512x1 .f32) (x2 : FVec Ideal S1x2x2048 .f32)
    (x3 : FVec Ideal S1x1x2048 .f32) (x4 : FVec Ideal S1x2048x128 .f32) (u : Fin 1) (r : Fin 512) (d : Fin 128) :
    k0_pay1 (F := Ideal) x0 x1 x2 x3 x4 (ix3 u r d)
      = ∑ n : Fin 2048, Ideal.exp ((∑ k : Fin 2, x0 (ix2 r k) * x2 (ix3 (0 : Fin 1) k n)) - x1 (ix2 r (0 : Fin 1))
          - x3 (ix3 (0 : Fin 1) (0 : Fin 1) n)) * x4 (ix3 (0 : Fin 1) n d) := by
  unfold k0_pay1
  refine (shapeCast_ab_1ab_apply _ shapeCasts_S512x128_S1x512x128 u r d).trans ?_
  have hd : dot_S512x2048_S2048x128_S512x128_1_0_0_1_n_n = DotDims.plain 512 2048 128 := rfl
  rw [hd]
  refine (show matmul (DotDims.plain 512 2048 128) (some .fp32) _ _ (constant S512x128 .f32 0x00000000#32) (ix2 r d) = _ from
    Cert.Lib.PlainDot.matmul_zero_apply 512 2048 128 (some .fp32) _ _ (ix2 r d)).trans ?_
  refine Finset.sum_congr rfl fun n _ => ?_
  refine congrArg₂ (· * ·) ?_ ?_
  · exact congrArg Ideal.exp (logits_apply x0 x1 x2 x3 r n)
  · exact shapeCast_1ab_ab_apply x4 shapeCasts_S1x2048x128_S2048x128 n d

end Cert.KernelIdeal.Payload

end
-- ==== Proof.Blocks.lean ====
/-
  From the tiles to the whole output array.

  Grid point `(b, q)` reads rows `512 q .. 512 q + 511` of the scaled grid `a` and of its half norms, batch `b` of the
  transposed scaled points, of their half norms and of the features, and writes rows `512 q ..` of batch `b` of the output.
  So every tile it writes is the restriction of ONE function of the five staged arrays: at `(b, m, d)` the sum over the
  points `n` of `exp ((sum_k a (m, k) * bT (b, k, n)) - halfrow m - halfcol (b, n)) * z (b, n, d)`. The 4 x 32 tiles cover
  the array (row `m` lies in tile `m / 512`), so the array ends holding that function.
-/
import proofs.«163607_j86251533238887_2_alg».proof.Proof.Gen.KernelIdeal.Frame
import proofs.«163607_j86251533238887_2_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- Row `r` of tile `q` is row `512 q + r` of the array. -/
def row (q : Fin 32) (r : Fin 512) : Fin 16384 := ⟨q.val * 512 + r.val, by have := q.isLt; have := r.isLt; omega⟩

/-- One entry of the output as a function of the five staged arrays. -/
def entry (A : FVec Ideal S16384x2 .f32) (HR : FVec Ideal S16384x1 .f32) (BT : FVec Ideal S4x2x2048 .f32)
    (HC : FVec Ideal S4x1x2048 .f32) (Z : FVec Ideal S4x2048x128 .f32) (b : Fin 4) (mm : Fin 16384) (d : Fin 128) : EReal :=
  ∑ n : Fin 2048, Ideal.exp ((∑ k : Fin 2, A (ix2 mm k) * BT (ix3 b k n)) - HR (ix2 mm (0 : Fin 1))
    - HC (ix3 b (0 : Fin 1) n)) * Z (ix3 b n d)

/-- The whole output array as a function of the five staged arrays. -/
def tileOut (A : FVec Ideal S16384x2 .f32) (HR : FVec Ideal S16384x1 .f32) (BT : FVec Ideal S4x2x2048 .f32)
    (HC : FVec Ideal S4x1x2048 .f32) (Z : FVec Ideal S4x2048x128 .f32) : S4x16384x128.Idx → EReal :=
  fun i => entry A HR BT HC Z ⟨(i 0).val, (i 0).isLt⟩ ⟨(i 1).val, (i 1).isLt⟩ ⟨(i 2).val, (i 2).isLt⟩

/-- The array's function at an index given by its coordinates. -/
theorem tileOut_ix3 (A : FVec Ideal S16384x2 .f32) (HR : FVec Ideal S16384x1 .f32) (BT : FVec Ideal S4x2x2048 .f32)
    (HC : FVec Ideal S4x1x2048 .f32) (Z : FVec Ideal S4x2048x128 .f32) (b : Fin 4) (mm : Fin 16384) (d : Fin 128) :
    tileOut A HR BT HC Z (ix3 b mm d) = entry A HR BT HC Z b mm d := rfl

/-- The array's function at an index whose coordinates are known. -/
theorem tileOut_at (A : FVec Ideal S16384x2 .f32) (HR : FVec Ideal S16384x1 .f32) (BT : FVec Ideal S4x2x2048 .f32)
    (HC : FVec Ideal S4x1x2048 .f32) (Z : FVec Ideal S4x2048x128 .f32) (i : S4x16384x128.Idx)
    (b : Fin 4) (mm : Fin 16384) (d : Fin 128) (h0 : (i 0).val = b.val) (h1 : (i 1).val = mm.val) (h2 : (i 2).val = d.val) :
    tileOut A HR BT HC Z i = entry A HR BT HC Z b mm d := by
  unfold tileOut
  congr 1 <;> exact Fin.ext (by assumption)

/-- A tile whose five loaded blocks are the blocks of the arrays at `(b, q)` stores the entries of rows `512 q ..`. -/
theorem tile_apply (A : FVec Ideal S16384x2 .f32) (HR : FVec Ideal S16384x1 .f32) (BT : FVec Ideal S4x2x2048 .f32)
    (HC : FVec Ideal S4x1x2048 .f32) (Z : FVec Ideal S4x2048x128 .f32)
    (x0 : FVec Ideal S512x2 .f32) (x1 : FVec Ideal S512x1 .f32) (x2 : FVec Ideal S1x2x2048 .f32)
    (x3 : FVec Ideal S1x1x2048 .f32) (x4 : FVec Ideal S1x2048x128 .f32) (b : Fin 4) (q : Fin 32)
    (h0 : ∀ (r : Fin 512) (k : Fin 2), x0 (ix2 r k) = A (ix2 (row q r) k))
    (h1 : ∀ r : Fin 512, x1 (ix2 r (0 : Fin 1)) = HR (ix2 (row q r) (0 : Fin 1)))
    (h2 : ∀ (k : Fin 2) (n : Fin 2048), x2 (ix3 (0 : Fin 1) k n) = BT (ix3 b k n))
    (h3 : ∀ n : Fin 2048, x3 (ix3 (0 : Fin 1) (0 : Fin 1) n) = HC (ix3 b (0 : Fin 1) n))
    (h4 : ∀ (n : Fin 2048) (d : Fin 128), x4 (ix3 (0 : Fin 1) n d) = Z (ix3 b n d))
    (u : Fin 1) (r : Fin 512) (d : Fin 128) :
    k0_pay1 (F := Ideal) x0 x1 x2 x3 x4 (ix3 u r d) = entry A HR BT HC Z b (row q r) d := by
  rw [Payload.pay_apply]
  unfold entry
  simp only [h0, h1, h2, h3, h4]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the grid tile and its norms move with the output's row tile, the
    batch's arrays with the output's batch, and the output's tile indices stay in range. -/
theorem idx_facts : ∀ t : Fin cfg0.N,
    win0_0.index t (0 : Fin 2) = win0_5.index t (1 : Fin 3) ∧ win0_0.index t (1 : Fin 2) = 0
    ∧ win0_1.index t (0 : Fin 2) = win0_5.index t (1 : Fin 3) ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 4 ∧ win0_5.index t (1 : Fin 3) < 32 ∧ win0_5.index t (2 : Fin 3) = 0 :=
  (by decide +kernel : ∀ t : Fin grid0.N, _)

/-- Every tile of the output is some point's. -/
theorem idx_onto : ∀ (q0 : Fin 4) (q1 : Fin 32), ∃ t : Fin cfg0.N, win0_5.index t = ![q0.val, q1.val, 0] :=
  (by decide +kernel : ∀ (q0 : Fin 4) (q1 : Fin 32), ∃ t : Fin grid0.N, win0_5.index t = ![q0.val, q1.val, 0])

set_option maxHeartbeats 4000000 in
/-- What point `t` writes back is tile `t` of any function that agrees with `entry` of the arrays as the region finds them. -/
theorem flushed_eq_of (c : Dev nD) (t : Fin cfg0.N) (G : S4x16384x128.Idx → EReal)
    (hG : ∀ (b : Fin 4) (mm : Fin 16384) (d : Fin 128), G (ix3 b mm d)
      = entry (V m c main_v8) (V m c main_v13) (V m c main_v22) (V m c main_v21) (V m c main_arg1) b mm d) :
    (dats m 0 c).flushed 5 t = ((cfg0.win 5).blk t).view.read (Elt Ideal) G := by
  show (cfg0.win 5).cut (grid0.coords t) ((dats m 0 c).after 5 t) = _
  rw [after0_5]
  unfold out0_5
  rw [View.canon_unit_zero hz3]
  simp only [View.ld_unit_zero (S := S512x2) hz2, View.ld_unit_zero (S := S512x1) hz2, View.ld_unit_zero (S := S1x2x2048) hz3,
    View.ld_unit_zero (S := S1x1x2048) hz3, View.ld_unit_zero (S := S1x2048x128) hz3]
  obtain ⟨e00, e01, e10, e11, e20, e21, e22, e30, e31, e32, e40, e41, e42, b0, b1, e52⟩ := idx_facts t
  funext j
  obtain ⟨u, r, d, rfl⟩ : ∃ (u : Fin 1) (r : Fin 512) (d : Fin 128), j = ix3 u r d := ⟨j 0, j 1, j 2, eq_ix3 j⟩
  have hu : u.val = 0 := by omega
  refine (tile_apply (V m c main_v8) (V m c main_v13) (V m c main_v22) (V m c main_v21) (V m c main_arg1)
    (iblk m c 0 t) (iblk m c 1 t) (iblk m c 2 t) (iblk m c 3 t) (iblk m c 4 t)
    ⟨win0_5.index t (0 : Fin 3), b0⟩ ⟨win0_5.index t (1 : Fin 3), b1⟩ ?_ ?_ ?_ ?_ ?_ u r d).trans ?_
  · intro r k
    show V m c main_v8 (((cfg0.win 0).blk t).view.emb (ix2 r k)) = V m c main_v8 (ix2 (row ⟨win0_5.index t (1 : Fin 3), b1⟩ r) k)
    refine congrArg (V m c main_v8) (funext fun a => Fin.ext ?_)
    match a with
    | ⟨0, _⟩ => show win0_0.index t (0 : Fin 2) * 512 + 1 * r.val = win0_5.index t (1 : Fin 3) * 512 + r.val; omega
    | ⟨1, _⟩ => show win0_0.index t (1 : Fin 2) * 2 + 1 * k.val = k.val; omega
  · intro r
    show V m c main_v13 (((cfg0.win 1).blk t).view.emb (ix2 r (0 : Fin 1))) = V m c main_v13 (ix2 (row ⟨win0_5.index t (1 : Fin 3), b1⟩ r) (0 : Fin 1))
    refine congrArg (V m c main_v13) (funext fun a => Fin.ext ?_)
    match a with
    | ⟨0, _⟩ => show win0_1.index t (0 : Fin 2) * 512 + 1 * r.val = win0_5.index t (1 : Fin 3) * 512 + r.val; omega
    | ⟨1, _⟩ => show win0_1.index t (1 : Fin 2) * 1 + 1 * 0 = 0; omega
  · intro k n
    show V m c main_v22 (((cfg0.win 2).blk t).view.emb (ix3 (0 : Fin 1) k n)) = V m c main_v22 (ix3 ⟨win0_5.index t (0 : Fin 3), b0⟩ k n)
    refine congrArg (V m c main_v22) (funext fun a => Fin.ext ?_)
    match a with
    | ⟨0, _⟩ => show win0_2.index t (0 : Fin 3) * 1 + 1 * 0 = win0_5.index t (0 : Fin 3); omega
    | ⟨1, _⟩ => show win0_2.index t (1 : Fin 3) * 2 + 1 * k.val = k.val; omega
    | ⟨2, _⟩ => show win0_2.index t (2 : Fin 3) * 2048 + 1 * n.val = n.val; omega
  · intro n
    show V m c main_v21 (((cfg0.win 3).blk t).view.emb (ix3 (0 : Fin 1) (0 : Fin 1) n)) = V m c main_v21 (ix3 ⟨win0_5.index t (0 : Fin 3), b0⟩ (0 : Fin 1) n)
    refine congrArg (V m c main_v21) (funext fun a => Fin.ext ?_)
    match a with
    | ⟨0, _⟩ => show win0_3.index t (0 : Fin 3) * 1 + 1 * 0 = win0_5.index t (0 : Fin 3); omega
    | ⟨1, _⟩ => show win0_3.index t (1 : Fin 3) * 1 + 1 * 0 = 0; omega
    | ⟨2, _⟩ => show win0_3.index t (2 : Fin 3) * 2048 + 1 * n.val = n.val; omega
  · intro n d
    show V m c main_arg1 (((cfg0.win 4).blk t).view.emb (ix3 (0 : Fin 1) n d)) = V m c main_arg1 (ix3 ⟨win0_5.index t (0 : Fin 3), b0⟩ n d)
    refine congrArg (V m c main_arg1) (funext fun a => Fin.ext ?_)
    match a with
    | ⟨0, _⟩ => show win0_4.index t (0 : Fin 3) * 1 + 1 * 0 = win0_5.index t (0 : Fin 3); omega
    | ⟨1, _⟩ => show win0_4.index t (1 : Fin 3) * 2048 + 1 * n.val = n.val; omega
    | ⟨2, _⟩ => show win0_4.index t (2 : Fin 3) * 128 + 1 * d.val = d.val; omega
  · have he : ((cfg0.win 5).blk t).view.emb (ix3 u r d)
        = ix3 (⟨win0_5.index t (0 : Fin 3), b0⟩ : Fin 4) (row ⟨win0_5.index t (1 : Fin 3), b1⟩ r) d := by
      funext a; apply Fin.ext
      match a with
      | ⟨0, _⟩ => show win0_5.index t (0 : Fin 3) * 1 + 1 * u.val = win0_5.index t (0 : Fin 3); omega
      | ⟨1, _⟩ => show win0_5.index t (1 : Fin 3) * 512 + 1 * r.val = win0_5.index t (1 : Fin 3) * 512 + r.val; omega
      | ⟨2, _⟩ => show win0_5.index t (2 : Fin 3) * 128 + 1 * d.val = d.val; omega
    show entry (V m c main_v8) (V m c main_v13) (V m c main_v22) (V m c main_v21) (V m c main_arg1)
        ⟨win0_5.index t (0 : Fin 3), b0⟩ (row ⟨win0_5.index t (1 : Fin 3), b1⟩ r) d
      = G (((cfg0.win 5).blk t).view.emb (ix3 u r d))
    rw [he]
    exact (hG ⟨win0_5.index t (0 : Fin 3), b0⟩ (row ⟨win0_5.index t (1 : Fin 3), b1⟩ r) d).symm

/-- WHAT POINT `t` WRITES BACK is tile `t` of `tileOut` of the arrays as the region finds them. -/
theorem flushed_eq (c : Dev nD) (t : Fin cfg0.N) :
    (dats m 0 c).flushed 5 t = ((cfg0.win 5).blk t).view.read (Elt Ideal)
      (tileOut (V m c main_v8) (V m c main_v13) (V m c main_v22) (V m c main_v21) (V m c main_arg1)) :=
  flushed_eq_of m c t _ (fun b mm d =>
    tileOut_ix3 (V m c main_v8) (V m c main_v13) (V m c main_v22) (V m c main_v21) (V m c main_arg1) b mm d)

/-- An index of the array is in point `t`'s tile iff each coordinate is in the tile's range on its axis. -/
theorem mem_blk (t : Fin cfg0.N) (i : S4x16384x128.Idx) :
    i ∈ ((cfg0.win 5).blk t).view.set ↔ ∀ a : Fin 3, win0_5.index t a * S1x512x128.size a ≤ (i a).val ∧ (i a).val < win0_5.index t a * S1x512x128.size a + S1x512x128.size a := by
  show i ∈ ((View.whole main_v23).slice (win0_5.rect t)).set ↔ _
  rw [View.set_slice_whole, Rect.mem_set_unit]
  exact Iff.rfl

/-- The tiles cover the array: row `m` of batch `b` lies in the tile of point `(b, m / 512)`. -/
theorem cover (i : S4x16384x128.Idx) :
    ∃ t : Fin cfg0.N, (cfg0.win 5).flush t = true ∧ i ∈ ((cfg0.win 5).blk t).view.set := by
  have hi0 : (i 0).val < 4 := (i 0).isLt
  have hi1 : (i 1).val < 16384 := (i 1).isLt
  have hi2 : (i 2).val < 128 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

/-- THE OUTPUT ARRAY after the region: `tileOut` of the five arrays as the region finds them. -/
theorem final (c : Dev nD) : (dats m 0 c).arrAt 5 cfg0.N
    = tileOut (V m c main_v8) (V m c main_v13) (V m c main_v22) (V m c main_v21) (V m c main_arg1) :=
  (dats m 0 c).arrAt_eq_of_cover 5 _ (fun t _ => flushed_eq m c t) cover

end Cert.KernelIdeal.Blocks

end
-- ==== Proof.LibSetConvLaw.lean ====
/-
  The algebra of the set convolution's weights, over the extended reals, with no program in sight.

  For one grid row `g` and one point `x` (two coordinates each) and the two lengthscales `L`, the reference's exponent is
  `-1/2 * sum_k (g k - x k)^2 / (L k * L k)`. With `a k = g k * (1 / L k)` and `b k = x k * (1 / L k)` the square expands,
  `(a k - b k)^2 = a k^2 - 2 a k b k + b k^2`, so the same exponent is `sum_k a k * b k - 1/2 sum_k a k^2 - 1/2 sum_k b k^2`:
  the kernel's arrangement. The expansion distributes products over differences and cancels `L k`, so it needs every
  entry finite and `L k` a nonzero real. The lengthscale is `eps + softplus p` with `eps > 0`; for a real `p` the softplus
  `max p 0 + log (1 + exp (-|p|))` is a nonnegative real, so the lengthscale is a positive real.
-/
import Idealize.ShloMosaic.PureOps.Ideal
import Idealize.ShloMosaic.PureOps.Ideal.Laws
import Idealize.ShloMosaic.Lib.IdealHost
import Idealize.ShloMosaic.Lib.ValueIdx

noncomputable section

namespace Cert.SetConv

open Idealize.ShloMosaic

/-! ## The literals -/

/-- The pattern of `0.5` denotes one half. -/
theorem ofBits_half : Ideal.ofBits .f32 0x3F000000#32 = ((1 / 2 : ℝ) : EReal) := by
  simp [Ideal.ofBits, Ideal.ieee, -EReal.coe_mul]; norm_num

/-- The pattern of `-0.5` denotes minus one half. -/
theorem ofBits_neg_half : Ideal.ofBits .f32 0xBF000000#32 = ((-(1 / 2) : ℝ) : EReal) := by
  simp [Ideal.ofBits, Ideal.ieee, -EReal.coe_mul]; norm_num

/-- The lengthscale's additive constant (the float nearest `1e-5`) denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ## The lengthscale -/

/-- The maximum of two reals, in the extended reals. -/
theorem coe_max (a b : ℝ) : max (a : EReal) (b : EReal) = ((max a b : ℝ) : EReal) :=
  (EReal.coe_strictMono.monotone.map_max).symm

/-- The lengthscale of one coordinate as both programs compute it from the parameter `p`: the constant plus the
    softplus, written with its guard for a parameter that is not a number (which no extended real is). -/
def lengthscale (p : EReal) : EReal :=
  Ideal.ofBits .f32 0x3727C5AC#32
    + Scalar.select (Ideal.cmp .une (p - Ideal.ofBits .f32 0x00000000#32) (p - Ideal.ofBits .f32 0x00000000#32))
        (p + Ideal.ofBits .f32 0x00000000#32)
        (max p (Ideal.ofBits .f32 0x00000000#32)
          + Ideal.log1p (Ideal.exp (-(max (p - Ideal.ofBits .f32 0x00000000#32) (-(p - Ideal.ofBits .f32 0x00000000#32))))))

/-- For a real parameter the lengthscale is a positive, hence nonzero, real. -/
theorem lengthscale_coe (r : ℝ) : ∃ l : ℝ, l ≠ 0 ∧ lengthscale (r : EReal) = (l : EReal) := by
  obtain ⟨e, he, hE⟩ := ofBits_eps
  have hexp : 0 < Real.exp (-(max (r - 0) (-(r - 0)))) := Real.exp_pos _
  refine ⟨e + (max r 0 + Real.log (1 + Real.exp (-(max (r - 0) (-(r - 0)))))), ?_, ?_⟩
  · have h1 : 0 ≤ max r 0 := le_max_right _ _
    have h2 : 0 ≤ Real.log (1 + Real.exp (-(max (r - 0) (-(r - 0))))) := Real.log_nonneg (by linarith)
    have : 0 < e + (max r 0 + Real.log (1 + Real.exp (-(max (r - 0) (-(r - 0)))))) := by linarith
    exact ne_of_gt this
  · unfold lengthscale
    rw [hE, Ideal.ofBits_zero_f32]
    have hc : Ideal.cmp .une ((r : EReal) - 0) ((r : EReal) - 0) = 0#1 := by
      simp [Ideal.cmp]
    rw [hc, ValueIdx.select_zero]
    have e0 : ((0 : ℝ) : EReal) = 0 := rfl
    rw [← e0]
    simp only [← EReal.coe_sub, ← EReal.coe_neg, coe_max, Ideal.exp_coe]
    unfold Ideal.log1p
    have e1 : ((1 : ℝ) : EReal) = 1 := rfl
    rw [← e1, ← EReal.coe_add, Ideal.log_coe, if_neg (by linarith), ← EReal.coe_add, ← EReal.coe_add]

/-! ## The exponent, in both arrangements -/

/-- The kernel's arrangement: cross term minus the two half squared norms of the scaled row and the scaled point. -/
def exponentK (L g x : Fin 2 → EReal) : EReal :=
  (∑ k : Fin 2, (g k * Ideal.div (Ideal.ofBits .f32 0x3F800000#32) (L k)) * (x k * Ideal.div (Ideal.ofBits .f32 0x3F800000#32) (L k)))
    - Ideal.ofBits .f32 0x3F000000#32 * (Ideal.ofBits .f32 0x00000000#32
        + ∑ k : Fin 2, (g k * Ideal.div (Ideal.ofBits .f32 0x3F800000#32) (L k)) * (g k * Ideal.div (Ideal.ofBits .f32 0x3F800000#32) (L k)))
    - Ideal.ofBits .f32 0x3F000000#32 * (Ideal.ofBits .f32 0x00000000#32
        + ∑ k : Fin 2, (x k * Ideal.div (Ideal.ofBits .f32 0x3F800000#32) (L k)) * (x k * Ideal.div (Ideal.ofBits .f32 0x3F800000#32) (L k)))

/-- The reference's arrangement: minus one half of the scaled squared distance. -/
def exponentR (L g x : Fin 2 → EReal) : EReal :=
  Ideal.ofBits .f32 0xBF000000#32 * (Ideal.ofBits .f32 0x00000000#32
    + ∑ k : Fin 2, Ideal.div ((g k - x k) * (g k - x k)) (L k * L k))

/-- THE LAW: on finite entries and nonzero real lengthscales the two arrangements are one number. -/
theorem exponentK_eq_exponentR (L g x : Fin 2 → EReal) (hL : ∀ k, ∃ l : ℝ, l ≠ 0 ∧ L k = (l : EReal))
    (hg : ∀ k, ∃ r : ℝ, g k = (r : EReal)) (hx : ∀ k, ∃ r : ℝ, x k = (r : EReal)) :
    exponentK L g x = exponentR L g x := by
  choose l hl0 hl using hL
  choose gr hgr using hg
  choose xr hxr using hx
  unfold exponentK exponentR
  simp only [Fin.sum_univ_two, hl, hgr, hxr, ofBits_half, ofBits_neg_half, Ideal.ofBits_zero_f32, Ideal.ofBits_one_f32]
  have e0 : (0 : EReal) = ((0 : ℝ) : EReal) := rfl
  have e1 : (1 : EReal) = ((1 : ℝ) : EReal) := rfl
  rw [e0, e1]
  simp only [← EReal.coe_mul, ← EReal.coe_sub, ← EReal.coe_add,
    Ideal.div_coe (hl0 0), Ideal.div_coe (hl0 1), Ideal.div_coe (mul_ne_zero (hl0 0) (hl0 0)), Ideal.div_coe (mul_ne_zero (hl0 1) (hl0 1))]
  refine congrArg _ ?_
  have h0 := hl0 0
  have h1 := hl0 1
  field_simp
  ring

end Cert.SetConv

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.HostPrefix.lean ====
/-
  The arrays the region stages, as the host lines before it leave them.

  From the arguments `x` (points), `grid` and the lengthscale parameter `p` the host computes the lengthscale vector
  `L = eps + softplus p`, its reciprocal `1 / L`, the scaled grid `a = grid_flat * (1 / L)` with the column
  `halfrow = 0.5 * sum_k a^2`, and the scaled points `xb = x * (1 / L)` with `halfcol = 0.5 * sum_k xb^2` and the
  transpose `bT`. Each is read here at an index.
-/
import proofs.«163607_j86251533238887_2_alg».proof.Proof.Gen.KernelIdeal.Frame
import proofs.«163607_j86251533238887_2_alg».proof.Proof.LibSetConvLaw
import proofs.«163607_j86251533238887_2_alg».proof.Proof.LibEdgeReads
import Idealize.ShloMosaic.Lib.ValueLayout
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx
open Idealize.SL Idealize.SL.Sem Idealize.ShloMosaic.StableHlo

/-! ## The host chain as functions of the arguments -/

/-- The zero vector the softplus compares and adds with. -/
def zero2 : FVec Ideal S2 .f32 := broadcastInDim S2 ![] bcast_S_S2 (constant (F := Ideal) S_ .f32 0x00000000#32)

/-- The lengthscale vector: the constant plus the softplus of the parameter. -/
def lsVec (p : FVec Ideal S2 .f32) : FVec Ideal S2 .f32 :=
  addf (broadcastInDim S2 ![] bcast_S_S2 (constant (F := Ideal) S_ .f32 0x3727C5AC#32))
    (select (cmpf .une (subf p zero2) (subf p zero2)) (addf p zero2)
      (addf (maximumf p zero2) (Host.log1p (Host.exp (Host.negf (Host.absf (subf p zero2)))))))

/-- Its reciprocal. -/
def invL (p : FVec Ideal S2 .f32) : FVec Ideal S2 .f32 :=
  Host.divf (broadcastInDim S2 ![] bcast_S_S2 (constant (F := Ideal) S_ .f32 0x3F800000#32)) (lsVec p)

/-- The flattened grid. -/
def gridFlat (g : FVec Ideal S128x128x2 .f32) : FVec Ideal S16384x2 .f32 :=
  shapeCast S16384x2 g shapeCasts_S128x128x2_S16384x2

/-- The scaled grid `a`. -/
def aArr (g : FVec Ideal S128x128x2 .f32) (p : FVec Ideal S2 .f32) : FVec Ideal S16384x2 .f32 :=
  mulf (gridFlat g) (broadcastInDim S16384x2 ![0, 1] bcast_S1x2_S16384x2_0_1 (broadcastInDim S1x2 ![1] bcast_S2_S1x2_1 (invL p)))

/-- Half the squared norm of each row of `a`, as a column. -/
def halfrowArr (g : FVec Ideal S128x128x2 .f32) (p : FVec Ideal S2 .f32) : FVec Ideal S16384x1 .f32 :=
  mulf (broadcastInDim S16384x1 ![] bcast_S_S16384x1 (constant (F := Ideal) S_ .f32 0x3F000000#32))
    (broadcastInDim S16384x1 ![0] bcast_S16384_S16384x1_0
      (Host.reduceAdd (mulf (aArr g p) (aArr g p)) (constant (F := Ideal) S_ .f32 0x00000000#32) reducesTo_S16384x2_S16384_d1 h_S_))

/-- The scaled points. -/
def xbArr (x : FVec Ideal S4x2048x2 .f32) (p : FVec Ideal S2 .f32) : FVec Ideal S4x2048x2 .f32 :=
  mulf x (broadcastInDim S4x2048x2 ![0, 1, 2] bcast_S1x1x2_S4x2048x2_0_1_2 (broadcastInDim S1x1x2 ![2] bcast_S2_S1x1x2_2 (invL p)))

/-- Half the squared norm of each scaled point, as a row per batch. -/
def halfcolArr (x : FVec Ideal S4x2048x2 .f32) (p : FVec Ideal S2 .f32) : FVec Ideal S4x1x2048 .f32 :=
  broadcastInDim S4x1x2048 ![0, 2] bcast_S4x2048_S4x1x2048_0_2
    (mulf (broadcastInDim S4x2048 ![] bcast_S_S4x2048 (constant (F := Ideal) S_ .f32 0x3F000000#32))
      (Host.reduceAdd (mulf (xbArr x p) (xbArr x p)) (constant (F := Ideal) S_ .f32 0x00000000#32) reducesTo_S4x2048x2_S4x2048_d2 h_S_))

/-- The scaled points transposed. -/
def bTArr (x : FVec Ideal S4x2048x2 .f32) (p : FVec Ideal S2 .f32) : FVec Ideal S4x2x2048 .f32 :=
  transpose S4x2x2048 [0, 2, 1] (xbArr x p) transposes_S4x2048x2_S4x2x2048_0_2_1

/-! ## What the region finds -/

variable (m : (ℓ : Loc nD τ sig) → Buf (Elt Ideal) ℓ)

set_option maxHeartbeats 4000000 in
theorem V_main_v8 (c : Dev nD) : (V m c main_v8 : S16384x2.Idx → EReal)
    = aArr (m ((c : Thread nD τ).loc main_arg2)) (m ((c : Thread nD τ).loc main_arg3)) := by
  dsimp only [Gen.V, Gen.V0]
  simp only [Gen.hostOps0, Gen.hostOps0_1, List.flatten_cons, List.flatten_nil, List.append_nil, List.cons_append, List.nil_append]
  after_results_simp
  rfl

set_option maxHeartbeats 4000000 in
theorem V_main_v13 (c : Dev nD) : (V m c main_v13 : S16384x1.Idx → EReal)
    = halfrowArr (m ((c : Thread nD τ).loc main_arg2)) (m ((c : Thread nD τ).loc main_arg3)) := by
  dsimp only [Gen.V, Gen.V0]
  simp only [Gen.hostOps0, Gen.hostOps0_1, List.flatten_cons, List.flatten_nil, List.append_nil, List.cons_append, List.nil_append]
  after_results_simp
  rfl

set_option maxHeartbeats 4000000 in
theorem V_main_v22 (c : Dev nD) : (V m c main_v22 : S4x2x2048.Idx → EReal)
    = bTArr (m ((c : Thread nD τ).loc main_arg0)) (m ((c : Thread nD τ).loc main_arg3)) := by
  dsimp only [Gen.V, Gen.V0]
  simp only [Gen.hostOps0, Gen.hostOps0_1, List.flatten_cons, List.flatten_nil, List.append_nil, List.cons_append, List.nil_append]
  after_results_simp
  rfl

set_option maxHeartbeats 4000000 in
theorem V_main_v21 (c : Dev nD) : (V m c main_v21 : S4x1x2048.Idx → EReal)
    = halfcolArr (m ((c : Thread nD τ).loc main_arg0)) (m ((c : Thread nD τ).loc main_arg3)) := by
  dsimp only [Gen.V, Gen.V0]
  simp only [Gen.hostOps0, Gen.hostOps0_1, List.flatten_cons, List.flatten_nil, List.append_nil, List.cons_append, List.nil_append]
  after_results_simp
  rfl

/-! ## The host chain read at an index -/

theorem lsVec_apply (p : FVec Ideal S2 .f32) (k : Fin 2) : lsVec p (ix1 k) = Cert.SetConv.lengthscale (p (ix1 k)) := rfl

theorem invL_apply (p : FVec Ideal S2 .f32) (k : Fin 2) :
    invL p (ix1 k) = Ideal.div (Ideal.ofBits .f32 0x3F800000#32) (Cert.SetConv.lengthscale (p (ix1 k))) := rfl

/-- The scaled grid at `(m, k)`. -/
theorem aArr_apply (g : FVec Ideal S128x128x2 .f32) (p : FVec Ideal S2 .f32) (mm : Fin 16384) (k : Fin 2) :
    aArr g p (ix2 mm k)
      = gridFlat g (ix2 mm k) * Ideal.div (Ideal.ofBits .f32 0x3F800000#32) (Cert.SetConv.lengthscale (p (ix1 k))) := by
  unfold aArr
  rw [mulf_apply]
  refine congrArg (gridFlat g (ix2 mm k) * ·) ?_
  refine (broadcastInDim_apply ![0, 1] bcast_S1x2_S16384x2_0_1 _ (ix2 mm k) (ix2 (0 : Fin 1) k)
    (fun a => by match a with | ⟨0, _⟩ => rfl | ⟨1, _⟩ => rfl)).trans ?_
  refine (broadcastInDim_apply ![1] bcast_S2_S1x2_1 _ (ix2 (0 : Fin 1) k) (ix1 k)
    (fun a => by match a with | ⟨0, _⟩ => rfl)).trans ?_
  exact invL_apply p k

/-- The scaled points at `(b, n, k)`. -/
theorem xbArr_apply (x : FVec Ideal S4x2048x2 .f32) (p : FVec Ideal S2 .f32) (b : Fin 4) (n : Fin 2048) (k : Fin 2) :
    xbArr x p (ix3 b n k)
      = x (ix3 b n k) * Ideal.div (Ideal.ofBits .f32 0x3F800000#32) (Cert.SetConv.lengthscale (p (ix1 k))) := by
  unfold xbArr
  rw [mulf_apply]
  refine congrArg (x (ix3 b n k) * ·) ?_
  refine (broadcastInDim_apply ![0, 1, 2] bcast_S1x1x2_S4x2048x2_0_1_2 _ (ix3 b n k) (ix3 (0 : Fin 1) (0 : Fin 1) k)
    (fun a => by match a with | ⟨0, _⟩ => rfl | ⟨1, _⟩ => rfl | ⟨2, _⟩ => rfl)).trans ?_
  refine (broadcastInDim_apply ![2] bcast_S2_S1x1x2_2 _ (ix3 (0 : Fin 1) (0 : Fin 1) k) (ix1 k)
    (fun a => by match a with | ⟨0, _⟩ => rfl)).trans ?_
  exact invL_apply p k

/-- The transposed scaled points at `(b, k, n)`. -/
theorem bTArr_apply (x : FVec Ideal S4x2048x2 .f32) (p : FVec Ideal S2 .f32) (b : Fin 4) (k : Fin 2) (n : Fin 2048) :
    bTArr x p (ix3 b k n) = xbArr x p (ix3 b n k) :=
  transpose_ix3_021_apply (xbArr x p) transposes_S4x2048x2_S4x2x2048_0_2_1 b k n

/-- Half the squared norm of row `m` of the scaled grid. -/
theorem halfrowArr_apply (g : FVec Ideal S128x128x2 .f32) (p : FVec Ideal S2 .f32) (mm : Fin 16384) :
    halfrowArr g p (ix2 mm (0 : Fin 1))
      = Ideal.ofBits .f32 0x3F000000#32 * (Ideal.ofBits .f32 0x00000000#32 + ∑ k : Fin 2, aArr g p (ix2 mm k) * aArr g p (ix2 mm k)) := by
  unfold halfrowArr
  rw [mulf_apply]
  refine congrArg (Ideal.ofBits .f32 0x3F000000#32 * ·) ?_
  refine (Cert.Lib.EdgeReads.column_of_vector_apply _ bcast_S16384_S16384x1_0 mm (0 : Fin 1)).trans ?_
  rw [hostReduceAdd_apply, Ideal.hostReduceAdd_single reducesTo_S16384x2_S16384_d1 (by decide)]
  refine congrArg (Ideal.ofBits .f32 0x00000000#32 + ·) (Finset.sum_congr rfl fun k _ => ?_)
  exact congrArg (mulf (aArr g p) (aArr g p)) (funext fun a => Fin.ext (by match a with | ⟨0, _⟩ => rfl | ⟨1, _⟩ => rfl))

/-- Half the squared norm of the scaled point `(b, n)`. -/
theorem halfcolArr_apply (x : FVec Ideal S4x2048x2 .f32) (p : FVec Ideal S2 .f32) (b : Fin 4) (n : Fin 2048) :
    halfcolArr x p (ix3 b (0 : Fin 1) n)
      = Ideal.ofBits .f32 0x3F000000#32 * (Ideal.ofBits .f32 0x00000000#32 + ∑ k : Fin 2, xbArr x p (ix3 b n k) * xbArr x p (ix3 b n k)) := by
  unfold halfcolArr
  refine (broadcastInDim_apply ![0, 2] bcast_S4x2048_S4x1x2048_0_2 _ (ix3 b (0 : Fin 1) n) (ix2 b n)
    (fun a => by match a with | ⟨0, _⟩ => rfl | ⟨1, _⟩ => rfl)).trans ?_
  rw [mulf_apply]
  refine congrArg (Ideal.ofBits .f32 0x3F000000#32 * ·) ?_
  rw [hostReduceAdd_apply, Ideal.hostReduceAdd_single reducesTo_S4x2048x2_S4x2048_d2 (by decide)]
  refine congrArg (Ideal.ofBits .f32 0x00000000#32 + ·) (Finset.sum_congr rfl fun k _ => ?_)
  exact congrArg (mulf (xbArr x p) (xbArr x p)) (funext fun a => Fin.ext (by match a with | ⟨0, _⟩ => rfl | ⟨1, _⟩ => rfl | ⟨2, _⟩ => rfl))

/-- THE KERNEL'S EXPONENT at `(b, m, n)`, from the staged arrays: the law's kernel arrangement. -/
theorem exponent_apply (x : FVec Ideal S4x2048x2 .f32) (g : FVec Ideal S128x128x2 .f32) (p : FVec Ideal S2 .f32)
    (b : Fin 4) (mm : Fin 16384) (n : Fin 2048) :
    (∑ k : Fin 2, aArr g p (ix2 mm k) * bTArr x p (ix3 b k n)) - halfrowArr g p (ix2 mm (0 : Fin 1))
        - halfcolArr x p (ix3 b (0 : Fin 1) n)
      = Cert.SetConv.exponentK (fun k => Cert.SetConv.lengthscale (p (ix1 k))) (fun k => gridFlat g (ix2 mm k))
          (fun k => x (ix3 b n k)) := by
  rw [halfrowArr_apply, halfcolArr_apply]
  simp only [aArr_apply, bTArr_apply, xbArr_apply]
  rfl

end Cert.KernelIdeal.HostPrefix

end
-- ==== Proof.KernelRun.lean ====
/-
  The kernel program's run, with both results named as functions of the arguments.

  After the region two host lines remain: the flat output `[4, 16384, 128]` is reshaped to `[4, 128, 128, 128]`, and the
  grid is broadcast over the batch. The flat output is the region's array, which the tiles fill with `tileOut` of the
  staged arrays; those are the host chain of the arguments.
-/
import proofs.«163607_j86251533238887_2_alg».proof.Proof.Gen.KernelIdeal.Frame
import proofs.«163607_j86251533238887_2_alg».proof.Proof.Blocks
import proofs.«163607_j86251533238887_2_alg».proof.Proof.HostPrefix
import Idealize.ShloMosaic.Lib.StableHlo.Run

noncomputable section

namespace Cert.KernelIdeal.KernelRun

open Cert.KernelIdeal Cert.KernelIdeal.Gen Idealize.ShloMosaic Idealize.ShloMosaic.TcCoe Idealize.ShloMosaic.ValueIdx
open Idealize.SL Idealize.SL.Sem Idealize.ShloMosaic.StableHlo
open Cert.KernelIdeal.HostPrefix Cert.KernelIdeal.Blocks

variable (m : (ℓ : Loc nD τ sig) → Buf (Elt Ideal) ℓ) (ρ : Dev nD → PrngReg)

/-- The flat output as a function of the four arguments. -/
def flatOut (x : FVec Ideal S4x2048x2 .f32) (z : FVec Ideal S4x2048x128 .f32) (g : FVec Ideal S128x128x2 .f32)
    (p : FVec Ideal S2 .f32) : FVec Ideal S4x16384x128 .f32 :=
  tileOut (aArr g p) (halfrowArr g p) (bTArr x p) (halfcolArr x p) z

/-- The region's array after the run, from the arguments. -/
theorem arr_final (c : Dev nD) : ((dats m 0 c).arrAt 5 cfg0.N : S4x16384x128.Idx → EReal)
    = flatOut (m ((c : Thread nD τ).loc main_arg0)) (m ((c : Thread nD τ).loc main_arg1))
        (m ((c : Thread nD τ).loc main_arg2)) (m ((c : Thread nD τ).loc main_arg3)) := by
  rw [Blocks.final m c, V_main_v8, V_main_v13, V_main_v22, V_main_v21, Gen.V_main_arg1]
  rfl

/-- The reshaped output after the tail. -/
theorem tail_v24 (c : Dev nD) : (Pipeline.afterTail₀ cfgs (dats m) 0 (V0 m) [hostOps1] c main_v24 : S4x128x128x128.Idx → EReal)
    = shapeCast S4x128x128x128 (flatOut (m ((c : Thread nD τ).loc main_arg0)) (m ((c : Thread nD τ).loc main_arg1))
        (m ((c : Thread nD τ).loc main_arg2)) (m ((c : Thread nD τ).loc main_arg3))) shapeCasts_S4x16384x128_S4x128x128x128 := by
  unfold Pipeline.afterTail₀
  show StableHlo.after hostOps1 _ (Proc.devRef .tc main_v24) = _
  after_results
  exact congrArg (fun a : FVec Ideal S4x16384x128 .f32 => shapeCast S4x128x128x128 a shapeCasts_S4x16384x128_S4x128x128x128)
    ((Pipeline.withArrays_arr spec0 launch0.win.arr_inj c _ _ 5).trans (arr_final m c))

/-- The broadcast grid after the tail. -/
theorem tail_v26 (c : Dev nD) : (Pipeline.afterTail₀ cfgs (dats m) 0 (V0 m) [hostOps1] c main_v26 : S4x128x128x2.Idx → EReal)
    = broadcastInDim S4x128x128x2 ![0, 1, 2, 3] bcast_S1x128x128x2_S4x128x128x2_0_1_2_3
        (broadcastInDim S1x128x128x2 ![1, 2, 3] bcast_S128x128x2_S1x128x128x2_1_2_3 (m ((c : Thread nD τ).loc main_arg2))) := by
  unfold Pipeline.afterTail₀
  show StableHlo.after hostOps1 _ (Proc.devRef .tc main_v26) = _
  after_results
  rw [Pipeline.withArrays_of_ne _ c (V0 m c) _ main_arg2 (by exact (by decide : ∀ w, Pipeline.arrRef spec0 w ≠ main_arg2))]
  exact congrArg (fun a : FVec Ideal S128x128x2 .f32 => broadcastInDim S4x128x128x2 ![0, 1, 2, 3] bcast_S1x128x128x2_S4x128x128x2_0_1_2_3
    (broadcastInDim S1x128x128x2 ![1, 2, 3] bcast_S128x128x2_S1x128x128x2_1_2_3 a)) (Gen.V_main_arg2 m c)

/-- THE KERNEL PROGRAM'S RUN: it terminates with the broadcast grid, the reshaped flat output, and its arguments unchanged. -/
theorem run : θ_run defs (onTc (τ := τ) (main (F := Ideal))) ⟨m, fun _ => 0, ρ⟩ (fun r => ∀ c : Dev nD,
      r.2.mem ((c.tc : Thread nD τ).loc main_v26)
        = broadcastInDim S4x128x128x2 ![0, 1, 2, 3] bcast_S1x128x128x2_S4x128x128x2_0_1_2_3
            (broadcastInDim S1x128x128x2 ![1, 2, 3] bcast_S128x128x2_S1x128x128x2_1_2_3 (m ((c.tc : Thread nD τ).loc main_arg2)))
      ∧ r.2.mem ((c.tc : Thread nD τ).loc main_v24)
        = shapeCast S4x128x128x128 (flatOut (m ((c.tc : Thread nD τ).loc main_arg0)) (m ((c.tc : Thread nD τ).loc main_arg1))
            (m ((c.tc : Thread nD τ).loc main_arg2)) (m ((c.tc : Thread nD τ).loc main_arg3))) shapeCasts_S4x16384x128_S4x128x128x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans (tail_v26 m c),
     ((h c).2 main_v24 (Pipeline.mem_restRefs_of main_v24 (by decide) (by decide))).trans (tail_v24 m c),
     ((h c).2 main_arg0 (Pipeline.mem_restRefs_of main_arg0 (by decide) (by decide))).trans (W_main_arg0 m (dats m) c),
     ((h c).1 4).trans ((((dats m) 0 c).arrAt_in 4 rfl _).trans ((A_eq m c 4).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The reference's flat output array, read at an index.

  The reference forms, for every batch `b`, grid row `m`, point `n` and coordinate `k`, the difference
  `grid_flat (m, k) - x (b, n, k)`, squares it, divides by `L k * L k`, sums over `k`, multiplies by `-0.5` and
  exponentiates: the weight `w (b, m, n)`. The flat output at `(b, m, d)` is the sum over `n` of `w (b, m, n) * z (b, n, d)`.
-/
import proofs.«163607_j86251533238887_2_alg».proof.Proof.Gen.ReferenceIdeal.Read
import proofs.«163607_j86251533238887_2_alg».proof.Proof.LibSetConvLaw
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's lengthscale vector at a coordinate. -/
theorem lengthscale_apply (x3 : FVec Ideal S2 .f32) (k : Fin 2) :
    val_main_v2 (F := Ideal) x3 (ix1 k) = Cert.SetConv.lengthscale (x3 (ix1 k)) := rfl

/-- One term of the scaled squared distance. -/
theorem term_apply (x0 : FVec Ideal S4x2048x2 .f32) (x2 : FVec Ideal S128x128x2 .f32) (x3 : FVec Ideal S2 .f32)
    (b : Fin 4) (mm : Fin 16384) (n : Fin 2048) (k : Fin 2) :
    val_main_v13 (F := Ideal) x0 x2 x3 (ix4 b mm n k)
      = Ideal.div ((val_main_v3 (F := Ideal) x2 (ix2 mm k) - x0 (ix3 b n k)) * (val_main_v3 (F := Ideal) x2 (ix2 mm k) - x0 (ix3 b n k)))
          (Cert.SetConv.lengthscale (x3 (ix1 k)) * Cert.SetConv.lengthscale (x3 (ix1 k))) := by
  have h6 : idx_main_v4 (idx_main_v6 (ix4 b mm n k)) = ix2 mm k :=
    funext fun a => Fin.ext (by match a with | ⟨0, _⟩ => rfl | ⟨1, _⟩ => rfl)
  have h7 : idx_main_v5 (idx_main_v7 (ix4 b mm n k)) = ix3 b n k :=
    funext fun a => Fin.ext (by match a with | ⟨0, _⟩ => rfl | ⟨1, _⟩ => rfl | ⟨2, _⟩ => rfl)
  have h12 : idx_main_v11 (idx_main_v12 (ix4 b mm n k)) = ix1 k :=
    funext fun a => Fin.ext (by match a with | ⟨0, _⟩ => rfl)
  rw [val_main_v13_apply, val_main_v9_apply, val_main_v8_apply, val_main_v6_apply, val_main_v4_apply, val_main_v7_apply,
    val_main_v5_apply, val_main_v12_apply, val_main_v11_apply, val_main_v10_apply, h6, h7, h12, lengthscale_apply]
  rfl

/-- The weight at `(b, m, n)`: the exponential of the reference's arrangement of the exponent. -/
theorem weight_apply (x0 : FVec Ideal S4x2048x2 .f32) (x2 : FVec Ideal S128x128x2 .f32) (x3 : FVec Ideal S2 .f32)
    (b : Fin 4) (mm : Fin 16384) (n : Fin 2048) :
    val_main_v17 (F := Ideal) x0 x2 x3 (ix3 b mm n)
      = Ideal.exp (Cert.SetConv.exponentR (fun k => Cert.SetConv.lengthscale (x3 (ix1 k)))
          (fun k => val_main_v3 (F := Ideal) x2 (ix2 mm k)) (fun k => x0 (ix3 b n k))) := by
  rw [val_main_v17_apply, val_main_v16_apply, val_main_v14_apply, val_main_v15_apply, val_main_cst_1_apply, val_main_cst_0_apply]
  unfold Cert.SetConv.exponentR
  refine congrArg (fun s => Ideal.exp (Ideal.ofBits .f32 0xBF000000#32 * (Ideal.ofBits .f32 0x00000000#32 + s)))
    (Finset.sum_congr rfl fun k _ => ?_)
  have hi : idx_main_v14 (ix3 b mm n) k = ix4 b mm n k :=
    funext fun a => Fin.ext (by match a with | ⟨0, _⟩ => rfl | ⟨1, _⟩ => rfl | ⟨2, _⟩ => rfl | ⟨3, _⟩ => rfl)
  rw [hi]
  exact term_apply x0 x2 x3 b mm n k

/-- THE REFERENCE'S FLAT OUTPUT at `(b, m, d)`. -/
theorem out_apply (x0 : FVec Ideal S4x2048x2 .f32) (x1 : FVec Ideal S4x2048x128 .f32) (x2 : FVec Ideal S128x128x2 .f32)
    (x3 : FVec Ideal S2 .f32) (b : Fin 4) (mm : Fin 16384) (d : Fin 128) :
    val_main_v18 (F := Ideal) x0 x1 x2 x3 (ix3 b mm d)
      = ∑ n : Fin 2048, Ideal.exp (Cert.SetConv.exponentR (fun k => Cert.SetConv.lengthscale (x3 (ix1 k)))
          (fun k => val_main_v3 (F := Ideal) x2 (ix2 mm k)) (fun k => x0 (ix3 b n k))) * x1 (ix3 b n d) := by
  rw [val_main_v18_apply]
  refine Finset.sum_congr rfl fun n _ => ?_
  have hl : lidx_main_v18 (ix3 b mm d) n = ix3 b mm n :=
    funext fun a => Fin.ext (by match a with | ⟨0, _⟩ => rfl | ⟨1, _⟩ => rfl | ⟨2, _⟩ => rfl)
  have hr : ridx_main_v18 (ix3 b mm d) n = ix3 b n d :=
    funext fun a => Fin.ext (by match a with | ⟨0, _⟩ => rfl | ⟨1, _⟩ => rfl | ⟨2, _⟩ => rfl)
  rw [hl, hr, weight_apply]

end Cert.ReferenceIdeal.RefValue

end
-- ==== Proof.Bridge.lean ====
/-
  The kernel's flat output is the reference's, on finite inputs.

  At `(b, m, d)` both are the sum over the points `n` of `exp (exponent b m n) * z (b, n, d)`. The kernel's exponent is
  the cross term minus the two half norms of the scaled row and point; the reference's is minus half the scaled squared
  distance. The law of the exponent joins them where the row, the point and the lengthscales are finite and the
  lengthscales are not zero, which the precondition gives.
-/
import proofs.«163607_j86251533238887_2_alg».proof.Proof.KernelRun
import proofs.«163607_j86251533238887_2_alg».proof.Proof.RefValue
import proofs.«163607_j86251533238887_2_alg».proof.Proof.LibSetConvLaw

noncomputable section

namespace Cert.Bridge

open Idealize.ShloMosaic Idealize.ShloMosaic.ValueIdx

theorem flat_eq (x : FVec Ideal Cert.KernelIdeal.S4x2048x2 .f32) (z : FVec Ideal Cert.KernelIdeal.S4x2048x128 .f32)
    (g : FVec Ideal Cert.KernelIdeal.S128x128x2 .f32) (p : FVec Ideal Cert.KernelIdeal.S2 .f32)
    (hx : ∀ i, ∃ r : ℝ, x i = (r : EReal)) (hg : ∀ i, ∃ r : ℝ, g i = (r : EReal)) (hp : ∀ i, ∃ r : ℝ, p i = (r : EReal)) :
    Cert.KernelIdeal.KernelRun.flatOut x z g p = Cert.ReferenceIdeal.Read.val_main_v18 (F := Ideal) x z g p := by
  funext i
  obtain ⟨b, mm, d, rfl⟩ : ∃ (b : Fin 4) (mm : Fin 16384) (d : Fin 128), i = ix3 b mm d := ⟨i 0, i 1, i 2, eq_ix3 i⟩
  unfold Cert.KernelIdeal.KernelRun.flatOut
  rw [Cert.KernelIdeal.Blocks.tileOut_ix3, Cert.ReferenceIdeal.RefValue.out_apply]
  unfold Cert.KernelIdeal.Blocks.entry
  refine Finset.sum_congr rfl fun n _ => ?_
  rw [Cert.KernelIdeal.HostPrefix.exponent_apply]
  refine congrArg (fun e => Ideal.exp e * z (ix3 b n d)) ?_
  refine (Cert.SetConv.exponentK_eq_exponentR _ _ _ (fun k => ?_) (fun k => ?_) (fun k => hx _)).trans rfl
  · obtain ⟨r, hr⟩ := hp (ix1 k)
    show ∃ l : ℝ, l ≠ 0 ∧ Cert.SetConv.lengthscale (p (ix1 k)) = (l : EReal)
    rw [hr]
    exact Cert.SetConv.lengthscale_coe r
  · exact hg _

end Cert.Bridge

end
-- ==== Proof.Finite.lean ====
/-
  What the precondition gives: every entry of the points, the grid and the lengthscale parameter is a real number.

  The precondition is the conjunction, over the four float arguments, of "every entry's absolute value is below +inf".
  An extended real whose absolute value is below +inf is neither infinity, so it is a real.
-/
import proofs.«163607_j86251533238887_2_alg».proof.Pre_finite_inputs
import proofs.«163607_j86251533238887_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

variable [Cert.Pre_finite_inputs.Facts]

instance : Subsingleton S_.Idx := ⟨fun a b => funext fun d => d.elim0⟩

/-- An extended real whose absolute value is below +inf is a real. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- From the precondition: the points, the grid and the lengthscale parameter hold reals. -/
theorem finite_of_pre (a0 : FVec Ideal S4x2048x2 .f32) (a1 : FVec Ideal S4x2048x128 .f32) (a2 : FVec Ideal S128x128x2 .f32)
    (a3 : FVec Ideal S2 .f32) (h : fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => real_of_abs_lt _ (Host.reduce_andi_all _ _ _ _ _ h3 i),
    fun i => real_of_abs_lt _ (Host.reduce_andi_all _ _ _ _ _ h12 i),
    fun i => real_of_abs_lt _ (Host.reduce_andi_all _ _ _ _ _ h17 i)⟩

end Cert.Pre_finite_inputs.Finite

end
-- ==== Proof.lean ====
/-
  The certificate of the set convolution kernel against its reference.

  Both programs compute, for every batch `b`, grid point `m` and feature `d`, the sum over the scattered points `n` of
  `w (b, m, n) * z (b, n, d)`, where the weight `w` is the exponential of minus half the squared distance between grid
  point and scattered point, each coordinate divided by its lengthscale. The reference forms the squared distance
  directly. The kernel expands the square: with `a = grid / L` and `b = x / L` its exponent is
  `a . b - |a|^2 / 2 - |b|^2 / 2`, the cross term a small matrix product inside the kernel and the two norms computed once
  on the host. On finite inputs, where the lengthscale `eps + softplus p` is a positive real, the two exponents are one
  number (Proof/LibSetConvLaw.lean), so the weights and the outputs agree; the second result, the grid broadcast over
  the batch, is the same host expression in both programs.

  The three frames are the generated frame runs (the reference's its generated run with the results dropped); the
  idealization rewrote nothing, so `preserves` is trivial.
-/
import proofs.«163607_j86251533238887_2_alg».proof.Defs
import proofs.«163607_j86251533238887_2_alg».proof.Proof.Gen.Kernel
import proofs.«163607_j86251533238887_2_alg».proof.Proof.Gen.Kernel.Skeleton
import proofs.«163607_j86251533238887_2_alg».proof.Proof.Gen.Kernel.Launch
import proofs.«163607_j86251533238887_2_alg».proof.Proof.Gen.Kernel.Points
import proofs.«163607_j86251533238887_2_alg».proof.Proof.Gen.Kernel.Frame
import proofs.«163607_j86251533238887_2_alg».proof.Proof.Gen.KernelIdeal
import proofs.«163607_j86251533238887_2_alg».proof.Proof.Gen.KernelIdeal.Skeleton
import proofs.«163607_j86251533238887_2_alg».proof.Proof.Gen.KernelIdeal.Launch
import proofs.«163607_j86251533238887_2_alg».proof.Proof.Gen.KernelIdeal.Points
import proofs.«163607_j86251533238887_2_alg».proof.Proof.Gen.KernelIdeal.Frame
import proofs.«163607_j86251533238887_2_alg».proof.Proof.Gen.ReferenceIdeal
import proofs.«163607_j86251533238887_2_alg».proof.Proof.Gen.Pre_finite_inputs
import proofs.«163607_j86251533238887_2_alg».proof.Proof.Gen.ReferenceIdeal.Run
import proofs.«163607_j86251533238887_2_alg».proof.Proof.Gen.ReferenceIdeal.Read
import proofs.«163607_j86251533238887_2_alg».proof.Proof.KernelRun
import proofs.«163607_j86251533238887_2_alg».proof.Proof.Bridge
import proofs.«163607_j86251533238887_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments, both idealized programs end with the grid broadcast over the batch and
    the reshaped flat output: the kernel's by its run, the reference's by its generated run and the equality of the
    flat outputs on finite inputs. -/
theorem algebraic : Cert.algebraic_KernelIdeal_ReferenceIdeal := by
  intro m ρ m' ρ' hpre hagree
  refine ⟨_, _, Cert.KernelIdeal.KernelRun.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [(hagree c).2.2.1]
  · obtain ⟨hx, hg, hp⟩ := Cert.Pre_finite_inputs.Finite.finite_of_pre _ _ _ _ (hpre c)
    rw [Cert.ReferenceIdeal.Read.val_main_v19_eq, (hagree c).1, (hagree c).2.1, (hagree c).2.2.1, (hagree c).2.2.2]
    unfold Cert.ReferenceIdeal.Read.val_main_v19
    rw [← Cert.Bridge.flat_eq _ _ _ _ hx hg hp]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
